-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128x128 .f32) (main_arg8 : FVec F S128 .f32) (main_arg9 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S1000x128 : Shape := ⟨2, ![1000, 128]⟩
abbrev S1x128 : Shape := ⟨2, ![1, 128]⟩

abbrev nBuf : Space → Nat
  | .hbm => 60
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S640000, .f32⟩
  | .hbm, ⟨16, _⟩ => ⟨S_, .f32⟩
  | .hbm, ⟨17, _⟩ => ⟨S10000, .f32⟩
  | .hbm, ⟨18, _⟩ => ⟨S640000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S_, .f32⟩
  | .hbm, ⟨37, _⟩ => ⟨S10000x128, .f32⟩
  | .hbm, ⟨38, _⟩ => ⟨S640000x1, .i32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S_, .f32⟩
  | .hbm, ⟨54, _⟩ => ⟨S10000x128, .f32⟩
  | .hbm, ⟨55, _⟩ => ⟨S640000x1, .i32⟩
  | .hbm, ⟨56, _⟩ => ⟨S10000x128, .f32⟩
  | .hbm, ⟨57, _⟩ => ⟨S10000x128, .f32⟩
  | .hbm, ⟨58, _⟩ => ⟨S10000x128, .f32⟩
  | .hbm, ⟨59, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S10000x128.size a
  hwx0_7 : ∀ i : grid0.Coords, EltTy.bits .f32 = 32 ∨ (Rect.block (s := S10000x128) S1000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x128.size a ≤ S10000x128.size a
  hwx0_8 : ∀ i : grid0.Coords, EltTy.bits .f32 = 32 ∨ (Rect.block (s := S10000x128) S1000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S10000x128.size a
  hwx1_5 : ∀ i : grid1.Coords, EltTy.bits .f32 = 32 ∨ (Rect.block (s := S10000x128) S1000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_0) S1000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_1) S1000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v25_0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_1) S1000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩

abbrev nBuf : Space → Nat
  | .hbm => 92
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S128x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S10000x128, .f32⟩
  | .hbm, ⟨30, _⟩ => ⟨S640000x1, .i32⟩
  | .hbm, ⟨31, _⟩ => ⟨S10000x128, .f32⟩
  | .hbm, ⟨32, _⟩ => ⟨S_, .f32⟩
  | .hbm, ⟨33, _⟩ => ⟨S640000, .f32⟩
  | .hbm, ⟨34, _⟩ => ⟨S_, .f32⟩
  | .hbm, ⟨35, _⟩ => ⟨S10000, .f32⟩
  | .hbm, ⟨36, _⟩ => ⟨S640000x1, .i32⟩
  | .hbm, ⟨37, _⟩ => ⟨S10000, .f32⟩
  | .hbm, ⟨38, _⟩ => ⟨S_, .f32⟩
  | .hbm, ⟨39, _⟩ => ⟨S10000, .f32⟩
  | .hbm, ⟨40, _⟩ => ⟨S10000, .f32⟩
  | .hbm, ⟨41, _⟩ => ⟨S10000x1, .f32⟩
  | .hbm, ⟨42, _⟩ => ⟨S10000x128, .f32⟩
  | .hbm, ⟨43, _⟩ => ⟨S10000x128, .f32⟩
  | .hbm, ⟨44, _⟩ => ⟨S128x128, .f32⟩
  | .hbm, ⟨45, _⟩ => ⟨S10000x128, .f32⟩
  | .hbm, ⟨46, _⟩ => ⟨S1x128, .f32⟩
  | .hbm, ⟨47, _⟩ => ⟨S10000x128, .f32⟩
  | .hbm, ⟨48, _⟩ => ⟨S10000x128, .f32⟩
  | .hbm, ⟨49, _⟩ => ⟨S128x128, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S10000x128, .f32⟩
  | .hbm, ⟨54, _⟩ => ⟨S10000x128, .f32⟩
  | .hbm, ⟨55, _⟩ => ⟨S_, .i32⟩
  | .hbm, ⟨56, _⟩ => ⟨S640000, .i32⟩
  | .hbm, ⟨57, _⟩ => ⟨S640000, .i1⟩
  | .hbm, ⟨58, _⟩ => ⟨S_, .i32⟩
  | .hbm, ⟨59, _⟩ => ⟨S640000, .i32⟩
  | .hbm, ⟨60, _⟩ => ⟨S640000, .i32⟩
  | .hbm, ⟨61, _⟩ => ⟨S640000, .i32⟩
  | .hbm, ⟨62, _⟩ => ⟨S640000x1, .i32⟩
  | .hbm, ⟨63, _⟩ => ⟨S640000x128, .f32⟩
  | .hbm, ⟨64, _⟩ => ⟨S_, .f32⟩
  | .hbm, ⟨65, _⟩ => ⟨S10000x128, .f32⟩
  | .hbm, ⟨66, _⟩ => ⟨S640000x1, .i32⟩
  | .hbm, ⟨67, _⟩ => ⟨S10000x128, .f32⟩
  | .hbm, ⟨68, _⟩ => ⟨S_, .f32⟩
  | .hbm, ⟨69, _⟩ => ⟨S640000, .f32⟩
  | .hbm, ⟨70, _⟩ => ⟨S_, .f32⟩
  | .hbm, ⟨71, _⟩ => ⟨S10000, .f32⟩
  | .hbm, ⟨72, _⟩ => ⟨S640000x1, .i32⟩
  | .hbm, ⟨73, _⟩ => ⟨S10000, .f32⟩
  | .hbm, ⟨74, _⟩ => ⟨S_, .f32⟩
  | .hbm, ⟨75, _⟩ => ⟨S10000, .f32⟩
  | .hbm, ⟨76, _⟩ => ⟨S10000, .f32⟩
  | .hbm, ⟨77, _⟩ => ⟨S10000x1, .f32⟩
  | .hbm, ⟨78, _⟩ => ⟨S10000x128, .f32⟩
  | .hbm, ⟨79, _⟩ => ⟨S10000x128, .f32⟩
  | .hbm, ⟨80, _⟩ => ⟨S128x128, .f32⟩
  | .hbm, ⟨81, _⟩ => ⟨S10000x128, .f32⟩
  | .hbm, ⟨82, _⟩ => ⟨S1x128, .f32⟩
  | .hbm, ⟨83, _⟩ => ⟨S10000x128, .f32⟩
  | .hbm, ⟨84, _⟩ => ⟨S10000x128, .f32⟩
  | .hbm, ⟨85, _⟩ => ⟨S128x128, .f32⟩
  | .hbm, ⟨86, _⟩ => ⟨S10000x128, .f32⟩
  | .hbm, ⟨87, _⟩ => ⟨S10000x128, .f32⟩
  | .hbm, ⟨88, _⟩ => ⟨S10000x128, .f32⟩
  | .hbm, ⟨89, _⟩ => ⟨S_, .f32⟩
  | .hbm, ⟨90, _⟩ => ⟨S10000x128, .f32⟩
  | .hbm, ⟨91, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_v36 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf

class Facts : Prop extends Facts₀ where

variable [Facts]
-- ==== Proof.KernelRun.lean ====
/-
  The idealized kernel's run with its result named.

  @main is four segments: the host operations before the first kernel region, that region, the host operations between
  the regions, and the second region. The buffer contents at each boundary are a fold from the launch memory
  (`W0 … W4` of the generated frame module). Every weakly fair execution terminates without a fault in a state whose
  unscoped buffers hold the last boundary's contents `W4`: in particular the result array holds `W4` at its buffer,
  and the argument arrays are as launched. What `W4` holds there, as a function of the arguments, is read off in the
  modules that import this one.
-/
import proofs.«113735_j35639638622735_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result array at the last boundary's
    contents and the argument arrays as launched. -/
theorem run : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Out

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibMeanNet.lean ====
/-
  A two-layer mean-aggregating graph network on the extended reals, layer by layer, as functions of whole arrays.

  A node's new features are a linear map of the MEAN of its in-neighbours' features, plus a bias row, plus another linear
  map of its own features: `conv a h wl wr b`, where `a` holds the aggregated rows, `h` the nodes' own rows, and each
  product is rows-times-matrix. The first layer floors that at `z` (`hidden`); the output layer first adds a side branch
  `r` (a plain linear map of the input features, `side`) and then floors (`outLayer`).

  Every entry of these depends on its own ROW of `a`, `h` and `r` only, so a block of rows of a layer is the layer of
  that block of rows (`conv_rows`, `hidden_rows`, `side_rows`, `outLayer_rows`): this is what lets a computation done
  row block by row block be read as one function of the whole arrays.

  The mean divides each row of the summed neighbour features by the number of in-neighbours floored at one
  (`meanRows`). The whole network, `net`, takes the neighbour SUM as a parameter `S` (any function of an array of node
  features) and the count vector `c`: nothing here depends on how the sum over edges is formed.
-/
import proofs.«113735_j35639638622735_1_alg».proof.Proof.LibPlainDot
import proofs.«113735_j35639638622735_1_alg».proof.Proof.LibRowBias

noncomputable section

namespace Cert.MeanNet

open Idealize.ShloMosaic Idealize.ShloMosaic.ValueIdx Cert.LibPlainDot Cert.LibRowBias

/-- An `M` by `N` array of extended reals. -/
abbrev Arr (M N : ℕ) : Type := (⟨2, ![M, N]⟩ : Shape).Idx → EReal

/-- One graph convolution before its activation: aggregated rows times `wl`, plus the bias row, plus own rows times `wr`. -/
def conv {M D : ℕ} (a h : Arr M D) (wl wr : Arr D D) (b : Arr 1 D) : Arr M D :=
  fun i => rowBias (rowsTimes a wl) b i + rowsTimes h wr i

/-- The first layer: the convolution floored at `z`. -/
def hidden {M D : ℕ} (z : EReal) (a h : Arr M D) (wl wr : Arr D D) (b : Arr 1 D) : Arr M D :=
  fun i => max (conv a h wl wr b i) z

/-- The side branch: rows times `w` plus the bias row. -/
def side {M D : ℕ} (x : Arr M D) (w : Arr D D) (b : Arr 1 D) : Arr M D := rowBias (rowsTimes x w) b

/-- The output layer: the convolution plus the side branch `r`, floored at `z`. -/
def outLayer {M D : ℕ} (z : EReal) (a h : Arr M D) (wl wr : Arr D D) (b : Arr 1 D) (r : Arr M D) : Arr M D :=
  fun i => max (conv a h wl wr b i + r i) z

/-- "`ab` is rows `o, …, o + R - 1` of `a`". -/
def RowsAt {M R D : ℕ} (o : ℕ) (a : Arr M D) (ab : Arr R D) : Prop :=
  ∀ (p : Fin R) (q : Fin D) (hp : o + p.val < M), ab (ix2 p q) = a (ix2 (⟨o + p.val, hp⟩ : Fin M) q)

/-- `RowsAt` at a pair of indices that name the same entry. -/
theorem RowsAt.apply {M R D : ℕ} {o : ℕ} {a : Arr M D} {ab : Arr R D} (ha : RowsAt o a ab)
    (y : (⟨2, ![R, D]⟩ : Shape).Idx) (i : (⟨2, ![M, D]⟩ : Shape).Idx) (h0 : (i 0).val = o + (y 0).val) (h1 : (i 1).val = (y 1).val) :
    ab y = a i := by
  have hM : o + (y 0).val < M := h0 ▸ idx2_lt0 i
  have ey : y = ix2 (⟨(y 0).val, idx2_lt0 y⟩ : Fin R) (⟨(y 1).val, idx2_lt1 y⟩ : Fin D) := by
    funext d; match d with | ⟨0, _⟩ => rfl | ⟨1, _⟩ => rfl
  have ei : i = ix2 (⟨o + (y 0).val, hM⟩ : Fin M) (⟨(y 1).val, idx2_lt1 y⟩ : Fin D) := by
    funext d; match d with | ⟨0, _⟩ => exact Fin.ext h0 | ⟨1, _⟩ => exact Fin.ext h1
  exact (congrArg ab ey).trans ((ha ⟨(y 0).val, idx2_lt0 y⟩ ⟨(y 1).val, idx2_lt1 y⟩ hM).trans (congrArg a ei.symm))

/-- A block of rows of the convolution is the convolution of that block of rows. -/
theorem conv_rows {M R D : ℕ} (o : ℕ) (a h : Arr M D) (ab hb : Arr R D) (wl wr : Arr D D) (b : Arr 1 D)
    (ha : RowsAt o a ab) (hh : RowsAt o h hb)
    (y : (⟨2, ![R, D]⟩ : Shape).Idx) (i : (⟨2, ![M, D]⟩ : Shape).Idx) (h0 : (i 0).val = o + (y 0).val) (h1 : (i 1).val = (y 1).val) :
    conv ab hb wl wr b y = conv a h wl wr b i := by
  unfold conv
  rw [rowBias_rows o (rowsTimes a wl) (rowsTimes ab wl) b
        (fun p q hp => rowsTimes_rows o a ab wl ha (ix2 p q) (ix2 (⟨o + p.val, hp⟩ : Fin M) q) rfl rfl) y i h0 h1,
      rowsTimes_rows o h hb wr hh y i h0 h1]

theorem hidden_rows {M R D : ℕ} (z : EReal) (o : ℕ) (a h : Arr M D) (ab hb : Arr R D) (wl wr : Arr D D) (b : Arr 1 D)
    (ha : RowsAt o a ab) (hh : RowsAt o h hb)
    (y : (⟨2, ![R, D]⟩ : Shape).Idx) (i : (⟨2, ![M, D]⟩ : Shape).Idx) (h0 : (i 0).val = o + (y 0).val) (h1 : (i 1).val = (y 1).val) :
    hidden z ab hb wl wr b y = hidden z a h wl wr b i := by
  unfold hidden
  rw [conv_rows o a h ab hb wl wr b ha hh y i h0 h1]

theorem side_rows {M R D : ℕ} (o : ℕ) (x : Arr M D) (xb : Arr R D) (w : Arr D D) (b : Arr 1 D) (hx : RowsAt o x xb)
    (y : (⟨2, ![R, D]⟩ : Shape).Idx) (i : (⟨2, ![M, D]⟩ : Shape).Idx) (h0 : (i 0).val = o + (y 0).val) (h1 : (i 1).val = (y 1).val) :
    side xb w b y = side x w b i :=
  rowBias_rows o (rowsTimes x w) (rowsTimes xb w) b
    (fun p q hp => rowsTimes_rows o x xb w hx (ix2 p q) (ix2 (⟨o + p.val, hp⟩ : Fin M) q) rfl rfl) y i h0 h1

theorem outLayer_rows {M R D : ℕ} (z : EReal) (o : ℕ) (a h r : Arr M D) (ab hb rb : Arr R D) (wl wr : Arr D D) (b : Arr 1 D)
    (ha : RowsAt o a ab) (hh : RowsAt o h hb) (hr : RowsAt o r rb)
    (y : (⟨2, ![R, D]⟩ : Shape).Idx) (i : (⟨2, ![M, D]⟩ : Shape).Idx) (h0 : (i 0).val = o + (y 0).val) (h1 : (i 1).val = (y 1).val) :
    outLayer z ab hb wl wr b rb y = outLayer z a h wl wr b r i := by
  unfold outLayer
  rw [conv_rows o a h ab hb wl wr b ha hh y i h0 h1, hr.apply y i h0 h1]

/-- Each row of the sums `s` divided by its count `c` floored at one: the mean over the in-neighbours (a node without
    any keeps its zero sum). -/
def meanRows {M D : ℕ} (s : Arr M D) (c : (⟨1, ![M]⟩ : Shape).Idx → EReal) : Arr M D :=
  fun i => Ideal.div (s i) (max (c (ix1 (⟨(i 0).val, idx2_lt0 i⟩ : Fin M))) 1)

/-- The network: `S` sums a feature array over each node's in-neighbours, `c` counts them. The side branch reads the
    input features; the first layer aggregates the input features, the output layer the first layer's result. -/
def net {M D : ℕ} (z : EReal) (S : Arr M D → Arr M D) (c : (⟨1, ![M]⟩ : Shape).Idx → EReal)
    (x : Arr M D) (ws wl₁ wr₁ wl₂ wr₂ : Arr D D) (bs b₁ b₂ : Arr 1 D) : Arr M D :=
  outLayer z (meanRows (S (hidden z (meanRows (S x) c) x wl₁ wr₁ b₁)) c) (hidden z (meanRows (S x) c) x wl₁ wr₁ b₁)
    wl₂ wr₂ b₂ (side x ws bs)

end Cert.MeanNet

end
-- ==== Proof.LibBodyBias.lean ====
/-
  The kernel bodies' "add the bias row, floor at zero", on the extended reals.

  Inside a kernel body a block of `R` rows `a` (an `[R, N]` array) meets the one-row bias `b` (an `[1, N]` array) as
  `max (a + broadcast b) (splat z)`: the bias is broadcast over the rows, and the floor `z` is a scalar splat. Entry
  `(p, q)` is therefore `max (a (p, q) + b (0, q)) z`: the body's expression is `rowBiasFloor z a b`, the same function
  the host's spelling of the rectified bias denotes.
-/
import proofs.«113735_j35639638622735_1_alg».proof.Proof.LibRowBias
import Idealize.ShloMosaic.Lib.Pipeline.Value

noncomputable section

namespace Cert.LibBodyBias

open Idealize.ShloMosaic Idealize.ShloMosaic.ValueIdx Cert.LibRowBias

/-- A one-row array broadcast over `R` rows reads, at `(p, q)`, the row at `(0, q)`. -/
theorem broadcastRow_apply {α : Type} {R N : ℕ} (b : (⟨2, ![1, N]⟩ : Shape).Idx → α)
    (h : (⟨2, ![1, N]⟩ : Shape).Broadcasts ⟨2, ![R, N]⟩) (p : Fin R) (q : Fin N) :
    broadcastTo ⟨2, ![R, N]⟩ b h (ix2 p q) = b (ix2 (0 : Fin 1) q) := by
  have hq : q.val = if N = 1 then 0 else q.val := by
    split
    · have := q.isLt; omega
    · rfl
  refine broadcastTo_apply b h (ix2 p q) (ix2 (0 : Fin 1) q) (fun a => ?_)
  match a with
  | ⟨0, _⟩ => show 0 = if (1 : ℕ) = 1 then 0 else p.val; rw [if_pos rfl]
  | ⟨1, _⟩ => show q.val = if N = 1 then 0 else q.val; exact hq

/-- The body's rectified bias of a block of rows is `rowBiasFloor` at the splat word's value. -/
theorem max_addf_broadcastRow {R N : ℕ} (w : BitVec 32) (a : FVec Ideal ⟨2, ![R, N]⟩ .f32) (b : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    maximumf (addf (shapeCast ⟨2, ![R, N]⟩ a ha) (broadcastTo ⟨2, ![R, N]⟩ (shapeCast ⟨2, ![1, N]⟩ b hb) hbc))
        (broadcast ⟨2, ![R, N]⟩ (Scalar.ofBits (F := Ideal) .f32 w))
      = rowBiasFloor (M := R) (N := N) (Ideal.ofBits .f32 w) a b := by
  rw [shapeCast_self, shapeCast_self]
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (a (ix2 p q) + broadcastTo ⟨2, ![R, N]⟩ b hbc (ix2 p q)) (Ideal.ofBits .f32 w) = _
  rw [broadcastRow_apply]

end Cert.LibBodyBias

end
-- ==== Proof.Bodies.lean ====
/-
  The two kernel bodies on the extended reals, as layers of the network applied to the blocks they load.

  On the extended reals a change of float format is the identity, and a matrix-unit product accumulated into the zero
  splat over the plain dimension numbers is rows-times-matrix. The bodies transpose each weight matrix before the
  product; the transposed matrix is kept as it is (the reference transposes the same matrices). A bias vector reshaped
  to one row and broadcast over the rows is the bias row added to every row.

  So the first body's two stores hold `hidden` (aggregated block, own block) and `side` (own block) of the blocks it
  loads, and the second body's store holds `outLayer` of the blocks it loads, with the floor at the zero word's value.
-/
import proofs.«113735_j35639638622735_1_alg».proof.Proof.Gen.KernelIdeal.Skeleton
import proofs.«113735_j35639638622735_1_alg».proof.Proof.LibMeanNet
import proofs.«113735_j35639638622735_1_alg».proof.Proof.LibBodyBias
import Idealize.ShloMosaic.Lib.Pipeline.Value

noncomputable section

namespace Cert.KernelIdeal.Body

open Cert.KernelIdeal Cert.KernelIdeal.Gen Idealize.ShloMosaic Idealize.ShloMosaic.ValueIdx
open Cert.MeanNet Cert.LibPlainDot Cert.LibRowBias Cert.LibBodyBias

/-- A one-row array broadcast over the rows and added is the row added to every row. -/
theorem addf_broadcastRow {R N : ℕ} (a : FVec Ideal ⟨2, ![R, N]⟩ .f32) (b : FVec Ideal ⟨2, ![1, N]⟩ .f32)
    (hbc : (⟨2, ![1, N]⟩ : Shape).Broadcasts ⟨2, ![R, N]⟩) :
    addf a (broadcastTo ⟨2, ![R, N]⟩ b hbc) = rowBias (M := R) (N := N) a b := by
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply]
  show a (ix2 p q) + broadcastTo ⟨2, ![R, N]⟩ b hbc (ix2 p q) = _
  rw [broadcastRow_apply]

/-- The transposed weight matrix, as both programs spell it. -/
abbrev tr (w : FVec Ideal S128x128 .f32) : FVec Ideal S128x128 .f32 :=
  transpose S128x128 [1, 0] w transposes_S128x128_p1_0_S128x128

/-- A bias vector as one row. -/
abbrev row (b : FVec Ideal S128 .f32) : FVec Ideal S1x128 .f32 := shapeCast S1x128 b shapeCasts_S128_S1x128

/-- The floor of both activations: the zero word's value. -/
abbrev z : EReal := Ideal.ofBits .f32 0x00000000#32

/-- The first body's first store: the first layer of the aggregated block `v1` and the own block `v0`. -/
theorem pay_hidden (v0 v1 : Vec Ideal S1000x128 .f32) (v5 v9 : Vec Ideal S128x128 .f32) (v13 : Vec Ideal S128 .f32) :
    k0_pay2 (F := Ideal) v0 v1 v5 v9 v13 = hidden (M := 1000) (D := 128) z v1 v0 (tr v9) (tr v5) (row v13) := by
  unfold k0_pay2 k0_pay1
  dsimp only
  rw [shapeCast_self]
  change maximumf (addf (addf (FloatOps.matmul (F := Ideal) (φ₁ := .bf16) (φ₂ := .bf16) (DotDims.plain 1000 128 128) none v1 (tr v9) (constant ⟨2, ![1000, 128]⟩ .f32 0x00000000#32))
      (broadcastTo ⟨2, ![1000, 128]⟩ (row v13) broadcasts_S1x128_S1000x128))
      (FloatOps.matmul (F := Ideal) (φ₁ := .bf16) (φ₂ := .bf16) (DotDims.plain 1000 128 128) none v0 (tr v5) (constant ⟨2, ![1000, 128]⟩ .f32 0x00000000#32)))
      (broadcast S1000x128 (Scalar.ofBits (F := Ideal) .f32 0x00000000#32)) = _
  rw [matmul_zero_plain, matmul_zero_plain, addf_broadcastRow]
  rfl

/-- The first body's second store: the side branch of the own block `v0`. -/
theorem pay_side (v0 : Vec Ideal S1000x128 .f32) (v21 : Vec Ideal S128x128 .f32) (v25 : Vec Ideal S128 .f32) :
    k0_pay3 (F := Ideal) v0 v21 v25 = side (M := 1000) (D := 128) v0 (tr v21) (row v25) := by
  unfold k0_pay3 k0_pay1
  dsimp only
  change addf (FloatOps.matmul (F := Ideal) (φ₁ := .bf16) (φ₂ := .bf16) (DotDims.plain 1000 128 128) none v0 (tr v21) (constant ⟨2, ![1000, 128]⟩ .f32 0x00000000#32))
      (broadcastTo ⟨2, ![1000, 128]⟩ (row v25) broadcasts_S1x128_S1000x128) = _
  rw [matmul_zero_plain, addf_broadcastRow]
  rfl

/-- The second body's store: the output layer of the aggregated block `v2`, the own block `v0` and the side block `v19`. -/
theorem pay_out (v0 v2 : Vec Ideal S1000x128 .f32) (v6 v10 : Vec Ideal S128x128 .f32) (v14 : Vec Ideal S128 .f32)
    (v19 : Vec Ideal S1000x128 .f32) :
    k1_pay1 (F := Ideal) v0 v2 v6 v10 v14 v19 = outLayer (M := 1000) (D := 128) z v2 v0 (tr v10) (tr v6) (row v14) v19 := by
  unfold k1_pay1
  dsimp only
  rw [shapeCast_self, shapeCast_self, shapeCast_self]
  change maximumf (addf (addf (addf (FloatOps.matmul (F := Ideal) (φ₁ := .bf16) (φ₂ := .bf16) (DotDims.plain 1000 128 128) none v2 (tr v10) (constant ⟨2, ![1000, 128]⟩ .f32 0x00000000#32))
      (broadcastTo ⟨2, ![1000, 128]⟩ (row v14) broadcasts_S1x128_S1000x128))
      (FloatOps.matmul (F := Ideal) (φ₁ := .bf16) (φ₂ := .bf16) (DotDims.plain 1000 128 128) none v0 (tr v6) (constant ⟨2, ![1000, 128]⟩ .f32 0x00000000#32))) v19)
      (broadcast S1000x128 (Scalar.ofBits (F := Ideal) .f32 0x00000000#32)) = _
  rw [matmul_zero_plain, matmul_zero_plain, addf_broadcastRow]
  rfl

end Cert.KernelIdeal.Body

end
-- ==== Proof.Region0.lean ====
/-
  The first kernel region, read as whole arrays.

  The grid has ten points; point `t` works on rows `1000 t … 1000 t + 999` of the node arrays and on the whole of each
  weight matrix and bias vector. What point `t` writes back to the first output is the first layer of the blocks it
  loaded, which — an entry of a layer depending on its own row only — is the same rows of the first layer of the whole
  arrays; likewise the second output and the side branch. The ten row blocks cover the arrays, so after the region the
  outputs hold the first layer and the side branch of the arrays the region found.
-/
import proofs.«113735_j35639638622735_1_alg».proof.Proof.Gen.KernelIdeal.Frame
import proofs.«113735_j35639638622735_1_alg».proof.Proof.Bodies

set_option maxRecDepth 16384

noncomputable section

namespace Cert.KernelIdeal.Region0

open Cert.KernelIdeal Cert.KernelIdeal.Gen Cert.KernelIdeal.Body Idealize.ShloMosaic Idealize.ShloMosaic.TcCoe
open Idealize.ShloMosaic.ValueIdx Idealize.SL.Sem Cert.MeanNet
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the node windows move together along the rows, one block per point, and stay
    at column block zero; the weight and bias windows stay at block zero. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_8.index t (0 : Fin 2) = win0_7.index t (0 : Fin 2) ∧ win0_8.index t (1 : Fin 2) = 0
    ∧ win0_7.index t (1 : Fin 2) = 0 ∧ win0_7.index t (0 : Fin 2) ≤ 9
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0 :=
  (by decide +kernel : ∀ t : Fin grid0.N, _)

/-- Every row block is some point's. -/
theorem idx_onto : ∀ q0 : Fin 10, ∃ t : Fin cfg0.N, win0_7.index t (0 : Fin 2) = q0.val :=
  (by decide +kernel : ∀ q0 : Fin 10, ∃ t : Fin grid0.N, win0_7.index t (0 : Fin 2) = q0.val)

/-! ## The blocks the body loads -/

/-- A weight window's block is the whole matrix. -/
theorem wblk (A : S128x128.Idx → EReal) (blk : S128x128.Idx → EReal) (e : S128x128.Idx → S128x128.Idx)
    (hb : ∀ y, blk y = A (e y)) (he : ∀ y a, (e y a).val = 0 * 128 + 1 * (y a).val) : blk = A := by
  funext y
  rw [hb y]
  refine congrArg A (funext fun a => Fin.ext ?_)
  rw [he y a]; omega

theorem iblk_w2 (c : Dev nD) (t : Fin cfg0.N) : (iblk0 V c 2 t : S128x128.Idx → EReal) = V c main_arg2 := by
  obtain ⟨_, _, _, _, _, _, _, _, e0, e1, _⟩ := idx_facts t
  funext y
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem iblk_w4 (c : Dev nD) (t : Fin cfg0.N) : (iblk0 V c 4 t : S128x128.Idx → EReal) = V c main_arg4 := by
  obtain ⟨_, _, _, _, _, _, _, _, _, _, _, e0, e1, _⟩ := idx_facts t
  funext y
  show V c main_arg4 (((cfg0.win 4).blk t).view.emb y) = V c main_arg4 y
  refine congrArg (V c main_arg4) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem iblk_w6 (c : Dev nD) (t : Fin cfg0.N) : (iblk0 V c 6 t : S128x128.Idx → EReal) = V c main_arg6 := by
  obtain ⟨_, _, _, _, _, _, _, _, _, _, _, _, _, _, e0, e1⟩ := idx_facts t
  funext y
  show V c main_arg6 (((cfg0.win 6).blk t).view.emb y) = V c main_arg6 y
  refine congrArg (V c main_arg6) (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega

theorem iblk_w3 (c : Dev nD) (t : Fin cfg0.N) : (iblk0 V c 3 t : S128.Idx → EReal) = V c main_arg3 := by
  obtain ⟨_, _, _, _, _, _, _, _, _, _, e0, _⟩ := idx_facts t
  funext y
  show V c main_arg3 (((cfg0.win 3).blk t).view.emb y) = V c main_arg3 y
  refine congrArg (V c main_arg3) (funext fun a => Fin.ext ?_)
  match a with
  | ⟨0, _⟩ => show win0_3.index t (0 : Fin 1) * 128 + 1 * (y 0).val = (y 0).val; omega

theorem iblk_w5 (c : Dev nD) (t : Fin cfg0.N) : (iblk0 V c 5 t : S128.Idx → EReal) = V c main_arg5 := by
  obtain ⟨_, _, _, _, _, _, _, _, _, _, _, _, _, e0, _⟩ := idx_facts t
  funext y
  show V c main_arg5 (((cfg0.win 5).blk t).view.emb y) = V c main_arg5 y
  refine congrArg (V c main_arg5) (funext fun a => Fin.ext ?_)
  match a with
  | ⟨0, _⟩ => show win0_5.index t (0 : Fin 1) * 128 + 1 * (y 0).val = (y 0).val; omega

/-- The own-features window's block at point `t` is rows `1000 t …` of the array. -/
theorem rows_w0 (c : Dev nD) (t : Fin cfg0.N) :
    RowsAt (M := 10000) (R := 1000) (D := 128) (win0_7.index t (0 : Fin 2) * 1000) (V c main_arg0) (iblk0 V c 0 t) := by
  obtain ⟨e0, e1, _⟩ := idx_facts t
  intro p q hp
  show V c main_arg0 (((cfg0.win 0).blk t).view.emb (ix2 p q)) = V c main_arg0 (ix2 (⟨win0_7.index t (0 : Fin 2) * 1000 + p.val, hp⟩ : Fin 10000) q)
  refine congrArg (V c main_arg0) (funext fun a => Fin.ext ?_)
  match a with
  | ⟨0, _⟩ => show win0_0.index t (0 : Fin 2) * 1000 + 1 * p.val = win0_7.index t (0 : Fin 2) * 1000 + p.val; omega
  | ⟨1, _⟩ => show win0_0.index t (1 : Fin 2) * 128 + 1 * q.val = q.val; omega

/-- The aggregated-features window's block at point `t` is the same rows of its array. -/
theorem rows_w1 (c : Dev nD) (t : Fin cfg0.N) :
    RowsAt (M := 10000) (R := 1000) (D := 128) (win0_7.index t (0 : Fin 2) * 1000) (V c main_v24) (iblk0 V c 1 t) := by
  obtain ⟨_, _, e0, e1, _⟩ := idx_facts t
  intro p q hp
  show V c main_v24 (((cfg0.win 1).blk t).view.emb (ix2 p q)) = V c main_v24 (ix2 (⟨win0_7.index t (0 : Fin 2) * 1000 + p.val, hp⟩ : Fin 10000) q)
  refine congrArg (V c main_v24) (funext fun a => Fin.ext ?_)
  match a with
  | ⟨0, _⟩ => show win0_1.index t (0 : Fin 2) * 1000 + 1 * p.val = win0_7.index t (0 : Fin 2) * 1000 + p.val; omega
  | ⟨1, _⟩ => show win0_1.index t (1 : Fin 2) * 128 + 1 * q.val = q.val; omega

/-! ## The two output arrays -/

/-- The first layer of the arrays the region finds. -/
abbrev H (c : Dev nD) : S10000x128.Idx → EReal :=
  hidden (M := 10000) (D := 128) z (V c main_v24) (V c main_arg0) (tr (V c main_arg4)) (tr (V c main_arg6)) (row (V c main_arg5))

/-- The side branch of the arrays the region finds. -/
abbrev Sd (c : Dev nD) : S10000x128.Idx → EReal :=
  side (M := 10000) (D := 128) (V c main_arg0) (tr (V c main_arg2)) (row (V c main_arg3))

/-- What point `t` writes back to the first output is block `t` of the first layer. -/
theorem flushed7 (c : Dev nD) (t : Fin cfg0.N) :
    (dat0 V c).flushed 7 t = ((cfg0.win 7).blk t).view.read (Elt Ideal) (H V c) := by
  show (cfg0.win 7).cut (grid0.coords t) ((dat0 V c).after 7 t) = _
  rw [after0_7]
  unfold out0_7
  rw [View.canon_unit_zero hz2]
  simp only [View.ld_unit_zero (S := S1000x128) hz2, View.ld_unit_zero (S := S128x128) hz2, View.ld_unit_zero (S := S128) hz1]
  rw [pay_hidden, iblk_w4, iblk_w6, iblk_w5]
  obtain ⟨_, _, _, _, _, _, e71, _⟩ := idx_facts t
  funext j
  show hidden (M := 1000) (D := 128) z (iblk0 V c 1 t) (iblk0 V c 0 t) (tr (V c main_arg4)) (tr (V c main_arg6)) (row (V c main_arg5)) j
    = H V c (((cfg0.win 7).blk t).view.emb j)
  refine hidden_rows z (win0_7.index t (0 : Fin 2) * 1000) _ _ _ _ _ _ _ (rows_w1 V c t) (rows_w0 V c t) j _ ?_ ?_
  · show win0_7.index t (0 : Fin 2) * 1000 + 1 * (j 0).val = win0_7.index t (0 : Fin 2) * 1000 + (j 0).val; omega
  · show win0_7.index t (1 : Fin 2) * 128 + 1 * (j 1).val = (j 1).val; omega

/-- What point `t` writes back to the second output is block `t` of the side branch. -/
theorem flushed8 (c : Dev nD) (t : Fin cfg0.N) :
    (dat0 V c).flushed 8 t = ((cfg0.win 8).blk t).view.read (Elt Ideal) (Sd V c) := by
  show (cfg0.win 8).cut (grid0.coords t) ((dat0 V c).after 8 t) = _
  rw [after0_8]
  unfold out0_8
  rw [View.canon_unit_zero hz2]
  simp only [View.ld_unit_zero (S := S1000x128) hz2, View.ld_unit_zero (S := S128x128) hz2, View.ld_unit_zero (S := S128) hz1]
  rw [pay_side, iblk_w2, iblk_w3]
  obtain ⟨_, _, _, _, e80, e81, _⟩ := idx_facts t
  funext j
  show side (M := 1000) (D := 128) (iblk0 V c 0 t) (tr (V c main_arg2)) (row (V c main_arg3)) j
    = Sd V c (((cfg0.win 8).blk t).view.emb j)
  refine side_rows (win0_7.index t (0 : Fin 2) * 1000) _ _ _ _ (rows_w0 V c t) j _ ?_ ?_
  · show win0_8.index t (0 : Fin 2) * 1000 + 1 * (j 0).val = win0_7.index t (0 : Fin 2) * 1000 + (j 0).val; omega
  · show win0_8.index t (1 : Fin 2) * 128 + 1 * (j 1).val = (j 1).val; omega

/-- An index is in point `t`'s block of the first output iff each coordinate is in the block's range. -/
theorem mem_blk7 (t : Fin cfg0.N) (i : S10000x128.Idx) :
    i ∈ ((cfg0.win 7).blk t).view.set ↔ ∀ a : Fin 2, win0_7.index t a * S1000x128.size a ≤ (i a).val ∧ (i a).val < win0_7.index t a * S1000x128.size a + S1000x128.size a := by
  show i ∈ ((View.whole main_v25_0).slice (win0_7.rect t)).set ↔ _
  rw [View.set_slice_whole, Rect.mem_set_unit]
  exact Iff.rfl

theorem mem_blk8 (t : Fin cfg0.N) (i : S10000x128.Idx) :
    i ∈ ((cfg0.win 8).blk t).view.set ↔ ∀ a : Fin 2, win0_8.index t a * S1000x128.size a ≤ (i a).val ∧ (i a).val < win0_8.index t a * S1000x128.size a + S1000x128.size a := by
  show i ∈ ((View.whole main_v25_1).slice (win0_8.rect t)).set ↔ _
  rw [View.set_slice_whole, Rect.mem_set_unit]
  exact Iff.rfl

/-- The row blocks cover the first output. -/
theorem cover7 (i : S10000x128.Idx) : ∃ t : Fin cfg0.N, (cfg0.win 7).flush t = true ∧ i ∈ ((cfg0.win 7).blk t).view.set := by
  have hi0 : (i 0).val < 10000 := (i 0).isLt
  have hi1 : (i 1).val < 128 := (i 1).isLt
  obtain ⟨t, ht⟩ := idx_onto ⟨(i 0).val / 1000, by omega⟩
  have q0 : win0_7.index t (0 : Fin 2) = (i 0).val / 1000 := ht
  obtain ⟨_, _, _, _, _, _, e71, _⟩ := idx_facts t
  refine ⟨t, flush0_7 t, ?_⟩
  rw [mem_blk7]
  intro a
  match a with
  | ⟨0, _⟩ => show win0_7.index t (0 : Fin 2) * 1000 ≤ (i 0).val ∧ (i 0).val < win0_7.index t (0 : Fin 2) * 1000 + 1000; omega
  | ⟨1, _⟩ => show win0_7.index t (1 : Fin 2) * 128 ≤ (i 1).val ∧ (i 1).val < win0_7.index t (1 : Fin 2) * 128 + 128; omega

/-- The row blocks cover the second output. -/
theorem cover8 (i : S10000x128.Idx) : ∃ t : Fin cfg0.N, (cfg0.win 8).flush t = true ∧ i ∈ ((cfg0.win 8).blk t).view.set := by
  have hi0 : (i 0).val < 10000 := (i 0).isLt
  have hi1 : (i 1).val < 128 := (i 1).isLt
  obtain ⟨t, ht⟩ := idx_onto ⟨(i 0).val / 1000, by omega⟩
  have q0 : win0_7.index t (0 : Fin 2) = (i 0).val / 1000 := ht
  obtain ⟨_, _, _, _, e80, e81, _⟩ := idx_facts t
  refine ⟨t, flush0_8 t, ?_⟩
  rw [mem_blk8]
  intro a
  match a with
  | ⟨0, _⟩ => show win0_8.index t (0 : Fin 2) * 1000 ≤ (i 0).val ∧ (i 0).val < win0_8.index t (0 : Fin 2) * 1000 + 1000; omega
  | ⟨1, _⟩ => show win0_8.index t (1 : Fin 2) * 128 ≤ (i 1).val ∧ (i 1).val < win0_8.index t (1 : Fin 2) * 128 + 128; omega

/-- After the region the first output holds the first layer of the arrays the region found. -/
theorem final7 (c : Dev nD) : (dat0 V c).arrAt 7 cfg0.N = H V c :=
  (dat0 V c).arrAt_eq_of_cover 7 (H V c) (fun t _ => flushed7 V c t) cover7

/-- After the region the second output holds the side branch of the arrays the region found. -/
theorem final8 (c : Dev nD) : (dat0 V c).arrAt 8 cfg0.N = Sd V c :=
  (dat0 V c).arrAt_eq_of_cover 8 (Sd V c) (fun t _ => flushed8 V c t) cover8

end Cert.KernelIdeal.Region0

end
-- ==== Proof.Region1.lean ====
/-
  The second kernel region, read as whole arrays.

  As in the first region the grid's ten points each work on a block of a thousand rows of the node arrays — the first
  layer's result, its aggregate and the side branch — and on the whole of the weight matrices and the bias vector. What
  point `t` writes back is the output layer of the blocks it loaded, which is the same rows of the output layer of the
  whole arrays; the ten row blocks cover the result, so after the region it holds the output layer of the arrays the
  region found.
-/
import proofs.«113735_j35639638622735_1_alg».proof.Proof.Gen.KernelIdeal.Frame
import proofs.«113735_j35639638622735_1_alg».proof.Proof.Bodies

set_option maxRecDepth 16384

noncomputable section

namespace Cert.KernelIdeal.Region1

open Cert.KernelIdeal Cert.KernelIdeal.Gen Cert.KernelIdeal.Body Idealize.ShloMosaic Idealize.ShloMosaic.TcCoe
open Idealize.ShloMosaic.ValueIdx Idealize.SL.Sem Cert.MeanNet
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the node windows move together along the rows, one block per point, and stay
    at column block zero; the weight and bias windows stay at block zero. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_5.index t (0 : Fin 2) = win1_6.index t (0 : Fin 2) ∧ win1_5.index t (1 : Fin 2) = 0
    ∧ win1_6.index t (1 : Fin 2) = 0 ∧ win1_6.index t (0 : Fin 2) ≤ 9
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0 :=
  (by decide +kernel : ∀ t : Fin grid1.N, _)

/-- Every row block is some point's. -/
theorem idx_onto : ∀ q0 : Fin 10, ∃ t : Fin cfg1.N, win1_6.index t (0 : Fin 2) = q0.val :=
  (by decide +kernel : ∀ q0 : Fin 10, ∃ t : Fin grid1.N, win1_6.index t (0 : Fin 2) = q0.val)

/-! ## The blocks the body loads -/

theorem iblk_w2 (c : Dev nD) (t : Fin cfg1.N) : (iblk1 V c 2 t : S128x128.Idx → EReal) = V c main_arg7 := by
  obtain ⟨_, _, _, _, _, _, _, _, e0, e1, _⟩ := idx_facts t
  funext y
  show V c main_arg7 (((cfg1.win 2).blk t).view.emb y) = V c main_arg7 y
  refine congrArg (V c main_arg7) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem iblk_w4 (c : Dev nD) (t : Fin cfg1.N) : (iblk1 V c 4 t : S128x128.Idx → EReal) = V c main_arg9 := by
  obtain ⟨_, _, _, _, _, _, _, _, _, _, _, e0, e1⟩ := idx_facts t
  funext y
  show V c main_arg9 (((cfg1.win 4).blk t).view.emb y) = V c main_arg9 y
  refine congrArg (V c main_arg9) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem iblk_w3 (c : Dev nD) (t : Fin cfg1.N) : (iblk1 V c 3 t : S128.Idx → EReal) = V c main_arg8 := by
  obtain ⟨_, _, _, _, _, _, _, _, _, _, e0, _⟩ := idx_facts t
  funext y
  show V c main_arg8 (((cfg1.win 3).blk t).view.emb y) = V c main_arg8 y
  refine congrArg (V c main_arg8) (funext fun a => Fin.ext ?_)
  match a with
  | ⟨0, _⟩ => show win1_3.index t (0 : Fin 1) * 128 + 1 * (y 0).val = (y 0).val; omega

/-- The first layer's window's block at point `t` is rows `1000 t …` of its array. -/
theorem rows_w0 (c : Dev nD) (t : Fin cfg1.N) :
    RowsAt (M := 10000) (R := 1000) (D := 128) (win1_6.index t (0 : Fin 2) * 1000) (V c main_v25_0) (iblk1 V c 0 t) := by
  obtain ⟨e0, e1, _⟩ := idx_facts t
  intro p q hp
  show V c main_v25_0 (((cfg1.win 0).blk t).view.emb (ix2 p q)) = V c main_v25_0 (ix2 (⟨win1_6.index t (0 : Fin 2) * 1000 + p.val, hp⟩ : Fin 10000) q)
  refine congrArg (V c main_v25_0) (funext fun a => Fin.ext ?_)
  match a with
  | ⟨0, _⟩ => show win1_0.index t (0 : Fin 2) * 1000 + 1 * p.val = win1_6.index t (0 : Fin 2) * 1000 + p.val; omega
  | ⟨1, _⟩ => show win1_0.index t (1 : Fin 2) * 128 + 1 * q.val = q.val; omega

/-- The aggregate's window's block at point `t` is the same rows of its array. -/
theorem rows_w1 (c : Dev nD) (t : Fin cfg1.N) :
    RowsAt (M := 10000) (R := 1000) (D := 128) (win1_6.index t (0 : Fin 2) * 1000) (V c main_v37) (iblk1 V c 1 t) := by
  obtain ⟨_, _, e0, e1, _⟩ := idx_facts t
  intro p q hp
  show V c main_v37 (((cfg1.win 1).blk t).view.emb (ix2 p q)) = V c main_v37 (ix2 (⟨win1_6.index t (0 : Fin 2) * 1000 + p.val, hp⟩ : Fin 10000) q)
  refine congrArg (V c main_v37) (funext fun a => Fin.ext ?_)
  match a with
  | ⟨0, _⟩ => show win1_1.index t (0 : Fin 2) * 1000 + 1 * p.val = win1_6.index t (0 : Fin 2) * 1000 + p.val; omega
  | ⟨1, _⟩ => show win1_1.index t (1 : Fin 2) * 128 + 1 * q.val = q.val; omega

/-- The side branch's window's block at point `t` is the same rows of its array. -/
theorem rows_w5 (c : Dev nD) (t : Fin cfg1.N) :
    RowsAt (M := 10000) (R := 1000) (D := 128) (win1_6.index t (0 : Fin 2) * 1000) (V c main_v25_1) (iblk1 V c 5 t) := by
  obtain ⟨_, _, _, _, e0, e1, _⟩ := idx_facts t
  intro p q hp
  show V c main_v25_1 (((cfg1.win 5).blk t).view.emb (ix2 p q)) = V c main_v25_1 (ix2 (⟨win1_6.index t (0 : Fin 2) * 1000 + p.val, hp⟩ : Fin 10000) q)
  refine congrArg (V c main_v25_1) (funext fun a => Fin.ext ?_)
  match a with
  | ⟨0, _⟩ => show win1_5.index t (0 : Fin 2) * 1000 + 1 * p.val = win1_6.index t (0 : Fin 2) * 1000 + p.val; omega
  | ⟨1, _⟩ => show win1_5.index t (1 : Fin 2) * 128 + 1 * q.val = q.val; omega

/-! ## The output array -/

/-- The output layer of the arrays the region finds. -/
abbrev O (c : Dev nD) : S10000x128.Idx → EReal :=
  outLayer (M := 10000) (D := 128) z (V c main_v37) (V c main_v25_0) (tr (V c main_arg7)) (tr (V c main_arg9)) (row (V c main_arg8))
    (V c main_v25_1)

/-- What point `t` writes back is block `t` of the output layer. -/
theorem flushed6 (c : Dev nD) (t : Fin cfg1.N) :
    (dat1 V c).flushed 6 t = ((cfg1.win 6).blk t).view.read (Elt Ideal) (O V c) := by
  show (cfg1.win 6).cut (grid1.coords t) ((dat1 V c).after 6 t) = _
  rw [after1_6]
  unfold out1_6
  rw [View.canon_unit_zero hz2]
  simp only [View.ld_unit_zero (S := S1000x128) hz2, View.ld_unit_zero (S := S128x128) hz2, View.ld_unit_zero (S := S128) hz1]
  rw [pay_out, iblk_w2, iblk_w4, iblk_w3]
  obtain ⟨_, _, _, _, _, _, e61, _⟩ := idx_facts t
  funext j
  show outLayer (M := 1000) (D := 128) z (iblk1 V c 1 t) (iblk1 V c 0 t) (tr (V c main_arg7)) (tr (V c main_arg9)) (row (V c main_arg8))
      (iblk1 V c 5 t) j
    = O V c (((cfg1.win 6).blk t).view.emb j)
  refine outLayer_rows z (win1_6.index t (0 : Fin 2) * 1000) _ _ _ _ _ _ _ _ _ (rows_w1 V c t) (rows_w0 V c t) (rows_w5 V c t) j _ ?_ ?_
  · show win1_6.index t (0 : Fin 2) * 1000 + 1 * (j 0).val = win1_6.index t (0 : Fin 2) * 1000 + (j 0).val; omega
  · show win1_6.index t (1 : Fin 2) * 128 + 1 * (j 1).val = (j 1).val; omega

/-- An index is in point `t`'s block of the result iff each coordinate is in the block's range. -/
theorem mem_blk6 (t : Fin cfg1.N) (i : S10000x128.Idx) :
    i ∈ ((cfg1.win 6).blk t).view.set ↔ ∀ a : Fin 2, win1_6.index t a * S1000x128.size a ≤ (i a).val ∧ (i a).val < win1_6.index t a * S1000x128.size a + S1000x128.size a := by
  show i ∈ ((View.whole main_v38).slice (win1_6.rect t)).set ↔ _
  rw [View.set_slice_whole, Rect.mem_set_unit]
  exact Iff.rfl

/-- The row blocks cover the result. -/
theorem cover6 (i : S10000x128.Idx) : ∃ t : Fin cfg1.N, (cfg1.win 6).flush t = true ∧ i ∈ ((cfg1.win 6).blk t).view.set := by
  have hi0 : (i 0).val < 10000 := (i 0).isLt
  have hi1 : (i 1).val < 128 := (i 1).isLt
  obtain ⟨t, ht⟩ := idx_onto ⟨(i 0).val / 1000, by omega⟩
  have q0 : win1_6.index t (0 : Fin 2) = (i 0).val / 1000 := ht
  obtain ⟨_, _, _, _, _, _, e61, _⟩ := idx_facts t
  refine ⟨t, flush1_6 t, ?_⟩
  rw [mem_blk6]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 128 ≤ (i 1).val ∧ (i 1).val < win1_6.index t (1 : Fin 2) * 128 + 128; omega

/-- After the region the result holds the output layer of the arrays the region found. -/
theorem final6 (c : Dev nD) : (dat1 V c).arrAt 6 cfg1.N = O V c :=
  (dat1 V c).arrAt_eq_of_cover 6 (O V c) (fun t _ => flushed6 V c t) cover6

end Cert.KernelIdeal.Region1

end
-- ==== Proof.LibMeanSpell.lean ====
/-
  Two host spellings of "divide every row by its count floored at one", both `meanRows`.

  With `c` the count vector and `o` the scalar one, one program multiplies the sums by the column
  `1 / max(c, 1)` broadcast over the rows' entries, the other divides the sums by the column `max(c, 1)` broadcast the
  same way. Entry `(p, q)` of either broadcast reads the vector at `p`. Since `max(c p, 1) ≥ 1` is never zero, the
  division by it is the product with its reciprocal on every extended real, infinite sums included — so both programs
  compute the same mean, with no finiteness assumed.
-/
import proofs.«113735_j35639638622735_1_alg».proof.Proof.LibMeanNet
import Idealize.ShloMosaic.Lib.Pipeline.Value
import Idealize.ShloMosaic.Lib.IdealHost

noncomputable section

namespace Cert.MeanNet

open Idealize.ShloMosaic Idealize.ShloMosaic.ValueIdx

/-- A vector broadcast to one column and then over `D` columns reads, at `(p, q)`, the vector at `p`. -/
theorem bcastCol_apply {α : Type} {M D : ℕ}
    (h1 : (⟨1, ![M]⟩ : Shape).BroadcastsInDim ⟨2, ![M, 1]⟩ ![0])
    (h2 : (⟨2, ![M, 1]⟩ : Shape).BroadcastsInDim ⟨2, ![M, D]⟩ ![0, 1])
    (x : (⟨1, ![M]⟩ : Shape).Idx → α) (p : Fin M) (q : Fin D) :
    broadcastInDim ⟨2, ![M, D]⟩ ![0, 1] h2 (broadcastInDim ⟨2, ![M, 1]⟩ ![0] h1 x) (ix2 p q) = x (ix1 p) := by
  have hp : p.val = if M = 1 then 0 else p.val := by
    split
    · have := p.isLt; omega
    · rfl
  refine (broadcastInDim_apply ![0, 1] h2 (broadcastInDim ⟨2, ![M, 1]⟩ ![0] h1 x) (ix2 p q) (ix2 p (0 : Fin 1)) (fun a => ?_)).trans ?_
  · match a with
    | ⟨0, _⟩ => show p.val = if M = 1 then 0 else p.val; exact hp
    | ⟨1, _⟩ => show 0 = if (1 : ℕ) = 1 then 0 else q.val; rw [if_pos rfl]
  · refine broadcastInDim_apply ![0] h1 x (ix2 p (0 : Fin 1)) (ix1 p) (fun a => ?_)
    match a with
    | ⟨0, _⟩ => show p.val = if M = 1 then 0 else p.val; exact hp

/-- The count floored at one is not zero. -/
theorem max_one_ne_zero (c : EReal) : max c 1 ≠ 0 :=
  ne_of_gt (lt_of_lt_of_le zero_lt_one (le_max_right c 1))

/-- The floored counts as the programs spell them: the maximum with a broadcast of the one word, read at `p`. -/
theorem flooredCount_apply {M : ℕ} (c : FVec Ideal ⟨1, ![M]⟩ .f32)
    (h0 : (⟨0, ![]⟩ : Shape).BroadcastsInDim ⟨1, ![M]⟩ ![]) (p : Fin M) :
    maximumf c (broadcastInDim ⟨1, ![M]⟩ ![] h0 (constant (F := Ideal) ⟨0, ![]⟩ .f32 0x3F800000#32)) (ix1 p) = max (c (ix1 p)) 1 := by
  show max (c (ix1 p)) (broadcastInDim ⟨1, ![M]⟩ ![] h0 (constant (F := Ideal) ⟨0, ![]⟩ .f32 0x3F800000#32) (ix1 p)) = _
  rw [broadcastInDim_scalar_apply]
  show max (c (ix1 p)) (Ideal.ofBits .f32 0x3F800000#32) = _
  rw [Ideal.ofBits_one_f32]

/-- Dividing the sums by the broadcast floored counts is `meanRows`. -/
theorem divf_bcastCol {M D : ℕ} (s : FVec Ideal ⟨2, ![M, D]⟩ .f32) (c : FVec Ideal ⟨1, ![M]⟩ .f32)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, D]⟩ ![0, 1]) :
    Host.divf s (broadcastInDim ⟨2, ![M, D]⟩ ![0, 1] h2 (broadcastInDim ⟨2, ![M, 1]⟩ ![0] h1
        (maximumf c (broadcastInDim ⟨1, ![M]⟩ ![] h0 (constant (F := Ideal) ⟨0, ![]⟩ .f32 0x3F800000#32)))))
      = meanRows (M := M) (D := D) s c := by
  funext i
  obtain ⟨p, q, rfl⟩ : ∃ (p : Fin M) (q : Fin D), i = ix2 p q :=
    ⟨⟨(i 0).val, idx2_lt0 i⟩, ⟨(i 1).val, idx2_lt1 i⟩, by funext d; match d with | ⟨0, _⟩ => rfl | ⟨1, _⟩ => rfl⟩
  rw [hostDivf_apply, bcastCol_apply, flooredCount_apply]
  rfl

/-- Multiplying the sums by the broadcast reciprocals of the floored counts is `meanRows` too. -/
theorem mulf_bcastCol_recip {M D : ℕ} (s : FVec Ideal ⟨2, ![M, D]⟩ .f32) (c : FVec Ideal ⟨1, ![M]⟩ .f32)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, D]⟩ ![0, 1]) :
    mulf s (broadcastInDim ⟨2, ![M, D]⟩ ![0, 1] h2 (broadcastInDim ⟨2, ![M, 1]⟩ ![0] h1
        (Host.divf (broadcastInDim ⟨1, ![M]⟩ ![] h0 (constant (F := Ideal) ⟨0, ![]⟩ .f32 0x3F800000#32))
          (maximumf c (broadcastInDim ⟨1, ![M]⟩ ![] h0 (constant (F := Ideal) ⟨0, ![]⟩ .f32 0x3F800000#32))))))
      = meanRows (M := M) (D := D) s c := by
  funext i
  obtain ⟨p, q, rfl⟩ : ∃ (p : Fin M) (q : Fin D), i = ix2 p q :=
    ⟨⟨(i 0).val, idx2_lt0 i⟩, ⟨(i 1).val, idx2_lt1 i⟩, by funext d; match d with | ⟨0, _⟩ => rfl | ⟨1, _⟩ => rfl⟩
  show s (ix2 p q) * broadcastInDim ⟨2, ![M, D]⟩ ![0, 1] h2 (broadcastInDim ⟨2, ![M, 1]⟩ ![0] h1
        (Host.divf (broadcastInDim ⟨1, ![M]⟩ ![] h0 (constant (F := Ideal) ⟨0, ![]⟩ .f32 0x3F800000#32))
          (maximumf c (broadcastInDim ⟨1, ![M]⟩ ![] h0 (constant (F := Ideal) ⟨0, ![]⟩ .f32 0x3F800000#32))))) (ix2 p q) = _
  rw [bcastCol_apply, hostDivf_apply, flooredCount_apply, broadcastInDim_scalar_apply]
  show s (ix2 p q) * Ideal.div (Ideal.ofBits .f32 0x3F800000#32) (max (c (ix1 p)) 1) = _
  rw [Ideal.ofBits_one_f32, Ideal.mul_one_div (max_one_ne_zero _)]
  rfl

end Cert.MeanNet

end
-- ==== Proof.Host.lean ====
/-
  What the two kernel regions find in the buffers the host wrote.

  Before the first region the host slices the edge array into its source and target rows, counts each node's
  in-neighbours by scatter-adding ones at the targets, forms the column of reciprocals of the counts floored at one,
  sums the input features over each node's in-neighbours (gather the source rows — a negative id wrapped by the node
  count — and scatter-add them at the targets) and multiplies the sums by the broadcast reciprocals: the first region's
  aggregated operand is the MEAN of the input features over the in-neighbours. Between the regions it does the same to
  the first region's first output, with the same edge rows and the same reciprocal column. Neither stretch writes an
  argument array, and the second leaves the first region's outputs as they are.
-/
import proofs.«113735_j35639638622735_1_alg».proof.Proof.Gen.KernelIdeal.Frame
import proofs.«113735_j35639638622735_1_alg».proof.Proof.LibMeanSpell
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx Cert.MeanNet

abbrev Feat := (⟨S10000x128, .f32⟩ : BufTy).Contents (Elt Ideal)
abbrev Edges := (⟨S2x640000, .i32⟩ : BufTy).Contents (Elt Ideal)

/-- The edges' source ids and target ids: the two rows of the edge array. -/
def src (e : Edges) : (⟨S640000, .i32⟩ : BufTy).Contents (Elt Ideal) :=
  shapeCast S640000 (extractStridedSlice S1x640000 ![0, 0] e slices_S2x640000_S1x640000_0_0) shapeCasts_S1x640000_S640000
def dst (e : Edges) : (⟨S640000, .i32⟩ : BufTy).Contents (Elt Ideal) :=
  shapeCast S640000 (extractStridedSlice S1x640000 ![1, 0] e slices_S2x640000_S1x640000_1_0) shapeCasts_S1x640000_S640000

/-- The source ids as a column, a negative id wrapped by the node count. -/
def srcCol (e : Edges) : (⟨S640000x1, .i32⟩ : BufTy).Contents (Elt Ideal) :=
  broadcastInDim S640000x1 ![0] bcast_S640000_S640000x1_0
    (select (cmpi .slt (src e) (broadcastInDim S640000 ![] bcast_S_S640000 (constantI S_ 32 0#32)))
      (addi (src e) (broadcastInDim S640000 ![] bcast_S_S640000 (constantI S_ 32 10000#32))) (src e))

/-- The target ids as a column. -/
def dstCol (e : Edges) : (⟨S640000x1, .i32⟩ : BufTy).Contents (Elt Ideal) :=
  broadcastInDim S640000x1 ![0] bcast_S640000_S640000x1_0 (dst e)

/-- The sum of a feature array over each node's in-neighbours. -/
def nbrSum (e : Edges) (h : Feat) : Feat :=
  Host.scatterAdd scatter_S10000x128_S640000x1_S640000x128_1_0_0_1
    (broadcastInDim S10000x128 ![] bcast_S_S10000x128 (constant (F := Ideal) S_ .f32 0x00000000#32)) (dstCol e)
    (Host.gather gather_S10000x128_S640000x1_S640000x128_1_0_n_n_0_1_1128 h (srcCol e))

/-- The number of in-neighbours of each node. -/
def counts (e : Edges) : (⟨S10000, .f32⟩ : BufTy).Contents (Elt Ideal) :=
  Host.scatterAdd scatter_S10000_S640000x1_S640000_n_0_0_1
    (broadcastInDim S10000 ![] bcast_S_S10000 (constant (F := Ideal) S_ .f32 0x00000000#32)) (dstCol e)
    (broadcastInDim S640000 ![] bcast_S_S640000 (constant (F := Ideal) S_ .f32 0x3F800000#32))

/-- The column of reciprocals of the counts floored at one. -/
def recipCol (e : Edges) : (⟨S10000x1, .f32⟩ : BufTy).Contents (Elt Ideal) :=
  broadcastInDim S10000x1 ![0] bcast_S10000_S10000x1_0
    (Host.divf (broadcastInDim S10000 ![] bcast_S_S10000 (constant (F := Ideal) S_ .f32 0x3F800000#32))
      (maximumf (counts e) (broadcastInDim S10000 ![] bcast_S_S10000 (constant (F := Ideal) S_ .f32 0x3F800000#32))))

/-- Multiplying sums by the broadcast reciprocal column is the mean. -/
theorem mulf_recipCol (e : Edges) (s : Feat) :
    mulf (F := Ideal) (φ := .f32) s (broadcastInDim S10000x128 ![0, 1] bcast_S10000x1_S10000x128_0_1 (recipCol e))
      = meanRows (M := 10000) (D := 128) s (counts e) :=
  mulf_bcastCol_recip (M := 10000) (D := 128) s (counts e) bcast_S_S10000 bcast_S10000_S10000x1_0 bcast_S10000x1_S10000x128_0_1

variable (m : (ℓ : Loc nD τ sig) → Buf (Elt Ideal) ℓ) (ρ : Dev nD → PrngReg)

/-! ## Before the first region -/

set_option maxHeartbeats 8000000 in
theorem W1_v1 (c : Dev nD) : W1 m ρ c (Proc.devRef .tc main_v1) = src (m ((c : Thread nD τ).loc main_arg1)) := by
  show StableHlo.after hostOps0 _ (Proc.devRef .tc main_v1) = _
  after_results_simp <;> rfl

set_option maxHeartbeats 8000000 in
theorem W1_v3 (c : Dev nD) : W1 m ρ c (Proc.devRef .tc main_v3) = dst (m ((c : Thread nD τ).loc main_arg1)) := by
  show StableHlo.after hostOps0 _ (Proc.devRef .tc main_v3) = _
  after_results_simp <;> rfl

set_option maxHeartbeats 8000000 in
theorem W1_v12 (c : Dev nD) : W1 m ρ c (Proc.devRef .tc main_v12) = recipCol (m ((c : Thread nD τ).loc main_arg1)) := by
  show StableHlo.after hostOps0 _ (Proc.devRef .tc main_v12) = _
  after_results_simp <;> rfl

set_option maxHeartbeats 8000000 in
/-- The first region's aggregated operand: the mean of the input features over the in-neighbours. -/
theorem V1_agg (c : Dev nD) :
    (V1 m ρ c main_v24 : Feat) = meanRows (M := 10000) (D := 128)
      (nbrSum (m ((c : Thread nD τ).loc main_arg1)) (m ((c : Thread nD τ).loc main_arg0))) (counts (m ((c : Thread nD τ).loc main_arg1))) := by
  show StableHlo.after hostOps0 (W0 m ρ c) (Proc.devRef .tc main_v24) = _
  after_results_simp
  exact mulf_recipCol (m ((c : Thread nD τ).loc main_arg1)) (nbrSum (m ((c : Thread nD τ).loc main_arg1)) (m ((c : Thread nD τ).loc main_arg0)))

set_option maxHeartbeats 8000000 in
theorem W1_arg0 (c : Dev nD) : W1 m ρ c (Proc.devRef .tc main_arg0) = m ((c : Thread nD τ).loc main_arg0) := by
  show StableHlo.after hostOps0 _ (Proc.devRef .tc main_arg0) = _
  after_results_simp <;> rfl

set_option maxHeartbeats 8000000 in
theorem W1_arg2 (c : Dev nD) : W1 m ρ c (Proc.devRef .tc main_arg2) = m ((c : Thread nD τ).loc main_arg2) := by
  show StableHlo.after hostOps0 _ (Proc.devRef .tc main_arg2) = _
  after_results_simp <;> rfl

set_option maxHeartbeats 8000000 in
theorem W1_arg3 (c : Dev nD) : W1 m ρ c (Proc.devRef .tc main_arg3) = m ((c : Thread nD τ).loc main_arg3) := by
  show StableHlo.after hostOps0 _ (Proc.devRef .tc main_arg3) = _
  after_results_simp <;> rfl

set_option maxHeartbeats 8000000 in
theorem W1_arg4 (c : Dev nD) : W1 m ρ c (Proc.devRef .tc main_arg4) = m ((c : Thread nD τ).loc main_arg4) := by
  show StableHlo.after hostOps0 _ (Proc.devRef .tc main_arg4) = _
  after_results_simp <;> rfl

set_option maxHeartbeats 8000000 in
theorem W1_arg5 (c : Dev nD) : W1 m ρ c (Proc.devRef .tc main_arg5) = m ((c : Thread nD τ).loc main_arg5) := by
  show StableHlo.after hostOps0 _ (Proc.devRef .tc main_arg5) = _
  after_results_simp <;> rfl

set_option maxHeartbeats 8000000 in
theorem W1_arg6 (c : Dev nD) : W1 m ρ c (Proc.devRef .tc main_arg6) = m ((c : Thread nD τ).loc main_arg6) := by
  show StableHlo.after hostOps0 _ (Proc.devRef .tc main_arg6) = _
  after_results_simp <;> rfl

set_option maxHeartbeats 8000000 in
theorem W1_arg7 (c : Dev nD) : W1 m ρ c (Proc.devRef .tc main_arg7) = m ((c : Thread nD τ).loc main_arg7) := by
  show StableHlo.after hostOps0 _ (Proc.devRef .tc main_arg7) = _
  after_results_simp <;> rfl

set_option maxHeartbeats 8000000 in
theorem W1_arg8 (c : Dev nD) : W1 m ρ c (Proc.devRef .tc main_arg8) = m ((c : Thread nD τ).loc main_arg8) := by
  show StableHlo.after hostOps0 _ (Proc.devRef .tc main_arg8) = _
  after_results_simp <;> rfl

set_option maxHeartbeats 8000000 in
theorem W1_arg9 (c : Dev nD) : W1 m ρ c (Proc.devRef .tc main_arg9) = m ((c : Thread nD τ).loc main_arg9) := by
  show StableHlo.after hostOps0 _ (Proc.devRef .tc main_arg9) = _
  after_results_simp <;> rfl

/-! ## Between the regions -/

theorem W2_v1 (c : Dev nD) : W2 m ρ c (Proc.devRef .tc main_v1) = src (m ((c : Thread nD τ).loc main_arg1)) :=
  (W2_of_ne m ρ c main_v1 (by decide)).trans (W1_v1 m ρ c)
theorem W2_v3 (c : Dev nD) : W2 m ρ c (Proc.devRef .tc main_v3) = dst (m ((c : Thread nD τ).loc main_arg1)) :=
  (W2_of_ne m ρ c main_v3 (by decide)).trans (W1_v3 m ρ c)
theorem W2_v12 (c : Dev nD) : W2 m ρ c (Proc.devRef .tc main_v12) = recipCol (m ((c : Thread nD τ).loc main_arg1)) :=
  (W2_of_ne m ρ c main_v12 (by decide)).trans (W1_v12 m ρ c)

set_option maxHeartbeats 8000000 in
/-- The second region's aggregated operand: the mean of the first region's first output over the in-neighbours. -/
theorem V3_agg (c : Dev nD) :
    (V3 m ρ c main_v37 : Feat) = meanRows (M := 10000) (D := 128)
      (nbrSum (m ((c : Thread nD τ).loc main_arg1)) (W2 m ρ c (Proc.devRef .tc main_v25_0))) (counts (m ((c : Thread nD τ).loc main_arg1))) := by
  show StableHlo.after hostOps1 (W2 m ρ c) (Proc.devRef .tc main_v37) = _
  after_results_simp
  rw [W2_v1, W2_v3, W2_v12]
  exact mulf_recipCol (m ((c : Thread nD τ).loc main_arg1)) (nbrSum (m ((c : Thread nD τ).loc main_arg1)) (W2 m ρ c (Proc.devRef .tc main_v25_0)))

set_option maxHeartbeats 8000000 in
theorem V3_keep (c : Dev nD) (b : Ref sig .tc) (hb : b = main_v25_0 ∨ b = main_v25_1 ∨ b = main_arg7 ∨ b = main_arg8 ∨ b = main_arg9) :
    V3 m ρ c b = W2 m ρ c (Proc.devRef .tc b) := by
  rcases hb with rfl | rfl | rfl | rfl | rfl <;>
  · show StableHlo.after hostOps1 (W2 m ρ c) _ = _
    after_results_simp <;> rfl

end Cert.KernelIdeal.Host

end
-- ==== Proof.KernelNet.lean ====
/-
  The idealized kernel's result is the network of its arguments.

  Reading the fold of buffer contents backwards from the result: the result array is what the second region leaves —
  the output layer of the arrays it finds; of those, the aggregate is the mean, over the in-neighbours, of the first
  region's first output, the other two node arrays are the first region's outputs, and the weights and the bias are
  arguments. The first region's outputs are the first layer and the side branch of the arrays IT finds: the mean of the
  input features over the in-neighbours, and arguments. Put together this is `net` of the argument arrays, with the
  neighbour sum and the counts the host's gather / scatter-add terms of the edge array.
-/
import proofs.«113735_j35639638622735_1_alg».proof.Proof.KernelRun
import proofs.«113735_j35639638622735_1_alg».proof.Proof.Region0
import proofs.«113735_j35639638622735_1_alg».proof.Proof.Region1
import proofs.«113735_j35639638622735_1_alg».proof.Proof.Host

set_option maxRecDepth 16384

noncomputable section

namespace Cert.KernelIdeal.Out

open Cert.KernelIdeal Cert.KernelIdeal.Gen Cert.KernelIdeal.Body Cert.KernelIdeal.Host Idealize.ShloMosaic Idealize.ShloMosaic.TcCoe
open Idealize.SL.Sem Cert.MeanNet

variable (m : (ℓ : Loc nD τ sig) → Buf (Elt Ideal) ℓ) (ρ : Dev nD → PrngReg)

/-- The network of the argument arrays on core `c`. -/
def G (c : Dev nD) : S10000x128.Idx → EReal :=
  net (M := 10000) (D := 128) z (nbrSum (m ((c : Thread nD τ).loc main_arg1))) (counts (m ((c : Thread nD τ).loc main_arg1)))
    (m ((c : Thread nD τ).loc main_arg0))
    (tr (m ((c : Thread nD τ).loc main_arg2))) (tr (m ((c : Thread nD τ).loc main_arg4))) (tr (m ((c : Thread nD τ).loc main_arg6)))
    (tr (m ((c : Thread nD τ).loc main_arg7))) (tr (m ((c : Thread nD τ).loc main_arg9)))
    (row (m ((c : Thread nD τ).loc main_arg3))) (row (m ((c : Thread nD τ).loc main_arg5))) (row (m ((c : Thread nD τ).loc main_arg8)))

/-! ## What the first region finds, and leaves -/

theorem V1_arg0 (c : Dev nD) : V1 m ρ c main_arg0 = m ((c : Thread nD τ).loc main_arg0) := W1_arg0 m ρ c
theorem V1_arg2 (c : Dev nD) : V1 m ρ c main_arg2 = m ((c : Thread nD τ).loc main_arg2) := W1_arg2 m ρ c
theorem V1_arg3 (c : Dev nD) : V1 m ρ c main_arg3 = m ((c : Thread nD τ).loc main_arg3) := W1_arg3 m ρ c
theorem V1_arg4 (c : Dev nD) : V1 m ρ c main_arg4 = m ((c : Thread nD τ).loc main_arg4) := W1_arg4 m ρ c
theorem V1_arg5 (c : Dev nD) : V1 m ρ c main_arg5 = m ((c : Thread nD τ).loc main_arg5) := W1_arg5 m ρ c
theorem V1_arg6 (c : Dev nD) : V1 m ρ c main_arg6 = m ((c : Thread nD τ).loc main_arg6) := W1_arg6 m ρ c

/-- The first layer of the argument arrays. -/
def H1 (c : Dev nD) : S10000x128.Idx → EReal :=
  hidden (M := 10000) (D := 128) z
    (meanRows (nbrSum (m ((c : Thread nD τ).loc main_arg1)) (m ((c : Thread nD τ).loc main_arg0))) (counts (m ((c : Thread nD τ).loc main_arg1))))
    (m ((c : Thread nD τ).loc main_arg0)) (tr (m ((c : Thread nD τ).loc main_arg4))) (tr (m ((c : Thread nD τ).loc main_arg6)))
    (row (m ((c : Thread nD τ).loc main_arg5)))

/-- After the first region its first output holds the first layer of the arguments. -/
theorem W2_h1 (c : Dev nD) : W2 m ρ c (Proc.devRef .tc main_v25_0) = H1 m c := by
  refine (W2_arr m ρ c 7).trans ((Region0.final7 (V1 m ρ) c).trans ?_)
  unfold H1
  simp only [Region0.H]
  rw [V1_agg, V1_arg0, V1_arg4, V1_arg6, V1_arg5]

/-- After the first region its second output holds the side branch of the arguments. -/
theorem W2_inp (c : Dev nD) : W2 m ρ c (Proc.devRef .tc main_v25_1)
    = side (M := 10000) (D := 128) (m ((c : Thread nD τ).loc main_arg0)) (tr (m ((c : Thread nD τ).loc main_arg2))) (row (m ((c : Thread nD τ).loc main_arg3))) := by
  refine (W2_arr m ρ c 8).trans ((Region0.final8 (V1 m ρ) c).trans ?_)
  simp only [Region0.Sd]
  rw [V1_arg0, V1_arg2, V1_arg3]

/-! ## What the second region finds -/

theorem V3_h1 (c : Dev nD) : V3 m ρ c main_v25_0 = H1 m c :=
  (V3_keep m ρ c main_v25_0 (.inl rfl)).trans (W2_h1 m ρ c)
theorem V3_inp (c : Dev nD) : V3 m ρ c main_v25_1
    = side (M := 10000) (D := 128) (m ((c : Thread nD τ).loc main_arg0)) (tr (m ((c : Thread nD τ).loc main_arg2))) (row (m ((c : Thread nD τ).loc main_arg3))) :=
  (V3_keep m ρ c main_v25_1 (.inr (.inl rfl))).trans (W2_inp m ρ c)
theorem V3_arg7 (c : Dev nD) : V3 m ρ c main_arg7 = m ((c : Thread nD τ).loc main_arg7) :=
  (V3_keep m ρ c main_arg7 (.inr (.inr (.inl rfl)))).trans ((W2_of_ne m ρ c main_arg7 (by decide)).trans (W1_arg7 m ρ c))
theorem V3_arg8 (c : Dev nD) : V3 m ρ c main_arg8 = m ((c : Thread nD τ).loc main_arg8) :=
  (V3_keep m ρ c main_arg8 (.inr (.inr (.inr (.inl rfl))))).trans ((W2_of_ne m ρ c main_arg8 (by decide)).trans (W1_arg8 m ρ c))
theorem V3_arg9 (c : Dev nD) : V3 m ρ c main_arg9 = m ((c : Thread nD τ).loc main_arg9) :=
  (V3_keep m ρ c main_arg9 (.inr (.inr (.inr (.inr rfl))))).trans ((W2_of_ne m ρ c main_arg9 (by decide)).trans (W1_arg9 m ρ c))

/-! ## The result -/

/-- The last boundary's contents at the result array are the network of the arguments. -/
theorem result_eq (c : Dev nD) : W4 m ρ c (Proc.devRef .tc main_v38) = G m c := by
  refine (W4_arr m ρ c 6).trans ((Region1.final6 (V3 m ρ) c).trans ?_)
  unfold G
  simp only [Region1.O]
  rw [V3_agg, V3_h1, V3_inp, V3_arg7, V3_arg9, V3_arg8, W2_h1]
  rfl

/-- Every weakly fair execution of the idealized kernel ends with the result array at the network of the arguments,
    and the arguments as launched. -/
theorem run_net : θ_run (defs (F := Ideal)) (onTc (τ := τ) (main (F := Ideal))) ⟨m, fun _ => 0, ρ⟩ (fun r => ∀ c : Dev nD,
      r.2.mem ((c.tc : Thread nD τ).loc main_v38) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r h c => ⟨(h c).1.trans (result_eq m ρ c), (h c).2⟩) (run (F := Ideal) m ρ)

end Cert.KernelIdeal.Out

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«113735_j35639638622735_1_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.RefNet.lean ====
/-
  The reference program's result is the network.

  The reference computes everything on the host, on whole arrays. Its matrix products contract the left operand's
  columns with the rows of an explicitly transposed weight matrix (rows-times-matrix with the transposed matrix); its
  bias vectors are broadcast to one row and then over all rows (the bias row added to every row); its `relu` is the
  maximum with a broadcast zero (the floor at the zero word's value); and it divides the summed neighbour features by
  the broadcast in-neighbour counts floored at one (`meanRows`). The sum over in-neighbours — gather the source rows,
  scatter-add them at the target rows — and the counts — scatter-add ones at the target rows — stay as the host
  operations they are: `nbrSum` and `counts` below. Both layers recompute the edge columns and the counts from the
  same edge array, so they are the same terms.
-/
import proofs.«113735_j35639638622735_1_alg».proof.Proof.Gen.ReferenceIdeal.Read
import proofs.«113735_j35639638622735_1_alg».proof.Proof.LibMeanSpell
import proofs.«113735_j35639638622735_1_alg».proof.Proof.LibRowBiasHost

noncomputable section

namespace Cert.ReferenceIdeal.RefNet

open Cert.ReferenceIdeal Cert.ReferenceIdeal.Gen Cert.ReferenceIdeal.Read Idealize.ShloMosaic Idealize.ShloMosaic.ValueIdx
open Cert.MeanNet Cert.LibPlainDot Cert.LibRowBias

/-- The feature arrays, the weight matrices, the bias vectors and the edge array, as the reference's stages take them. -/
abbrev Feat := (⟨S10000x128, .f32⟩ : BufTy).Contents (Elt Ideal)
abbrev Mat := (⟨S128x128, .f32⟩ : BufTy).Contents (Elt Ideal)
abbrev Bias := (⟨S128, .f32⟩ : BufTy).Contents (Elt Ideal)
abbrev Edges := (⟨S2x640000, .i32⟩ : BufTy).Contents (Elt Ideal)

/-- The sum of a feature array over each node's in-neighbours: gather the source rows, scatter-add at the targets. -/
def nbrSum (e : Edges) (h : Feat) : Feat :=
  Host.scatterAdd (F := Ideal) (φ := .f32) scatter_S10000x128_S640000x1_S640000x128_1_0_0_1 (val_main_v16 (F := Ideal)) (val_main_v17 (F := Ideal) e)
    (Host.gather gather_S10000x128_S640000x1_S640000x128_1_0_n_n_0_1_1128 h (val_main_v14 (F := Ideal) e))

/-- The number of in-neighbours of each node. -/
def counts (e : Edges) : (⟨S10000, .f32⟩ : BufTy).Contents (Elt Ideal) := val_main_v22 (F := Ideal) e

/-- A weight matrix transposed, a bias vector as one row, and the floor. -/
abbrev tr (w : Mat) : Mat := transpose S128x128 [1, 0] w transposes_S128x128_S128x128_1_0
abbrev row (b : Bias) : (⟨2, ![1, 128]⟩ : Shape).Idx → EReal := shapeCast ⟨2, ![1, 128]⟩ b (by decide)
abbrev z : EReal := Ideal.ofBits .f32 0x00000000#32

/-- The reference's matrix product is rows-times-matrix. -/
theorem hostDot (l : Feat) (r : Mat) :
    Host.dotGeneral (F := Ideal) (φ₁ := .f32) (φ₂ := .f32) dot_S10000x128_S128x128_S10000x128_1_0_0_1_n_n none l r
      = rowsTimes (M := 10000) (K := 128) (N := 128) l r :=
  dotGeneral_plain (M := 10000) (K := 128) (N := 128) (φ₁ := .f32) (φ₂ := .f32) none _ l r

/-- The side branch. -/
theorem ref_side (x0 : Feat) (x2 : Mat) (x3 : Bias) :
    val_main_v8 (F := Ideal) x0 x2 x3 = side (M := 10000) (D := 128) x0 (tr x2) (row x3) := by
  unfold val_main_v8 val_main_v7 val_main_v6 val_main_v5 val_main_v4
  rw [hostDot, addf_bcastRow _ _ _ _ (by decide)]
  rfl

/-- The summed neighbour features of the input are `nbrSum`. -/
theorem ref_sum1 (x0 : Feat) (x1 : Edges) : val_main_v18 (F := Ideal) x0 x1 = nbrSum x1 x0 := by
  unfold val_main_v18 val_main_v15 nbrSum
  rfl

/-- The first layer. -/
theorem ref_hidden (x0 : Feat) (x1 : Edges) (x4 : Mat) (x5 : Bias) (x6 : Mat) :
    val_main_v36 (F := Ideal) x0 x1 x4 x5 x6
      = hidden (M := 10000) (D := 128) z (meanRows (nbrSum x1 x0) (counts x1)) x0 (tr x4) (tr x6) (row x5) := by
  unfold val_main_v36 val_main_v35 val_main_v34 val_main_v33 val_main_v32 val_main_v31 val_main_v30 val_main_v29 val_main_v28
    val_main_v27 val_main_v26 val_main_v25 val_main_v24 val_main_v23 val_main_cst_3 val_main_call0_v0 val_main_call0_cst
  rw [ref_sum1, divf_bcastCol, hostDot, hostDot, addf_bcastRow _ _ _ _ (by decide)]
  rfl

/-- The second layer's summed neighbour features are `nbrSum` of the first layer's result: the edge columns are
    recomputed from the same edge array. -/
theorem ref_sum2 (x0 : Feat) (x1 : Edges) (x4 : Mat) (x5 : Bias) (x6 : Mat) :
    val_main_v46 (F := Ideal) x0 x1 x4 x5 x6 = nbrSum x1 (val_main_v36 (F := Ideal) x0 x1 x4 x5 x6) := by
  unfold val_main_v46 val_main_v45 val_main_v44 val_main_cst_6 val_main_v43 val_main_v42 val_main_v41 val_main_v40 val_main_v39 val_main_c_5
    val_main_v38 val_main_v37 val_main_c_4 nbrSum val_main_v17 val_main_v16 val_main_cst val_main_v14 val_main_v13 val_main_v12 val_main_v11
    val_main_c_0 val_main_v10 val_main_v9 val_main_c
  rfl

/-- The second layer's counts are the first layer's. -/
theorem ref_counts2 (x1 : Edges) : val_main_v50 (F := Ideal) x1 = counts x1 := by
  unfold val_main_v50 val_main_v49 val_main_v48 val_main_cst_8 val_main_v47 val_main_cst_7 counts val_main_v22 val_main_v21 val_main_v20
    val_main_cst_2 val_main_v19 val_main_cst_1
  rfl

/-- The reference's result is the network of its arguments. -/
theorem ref_net (x0 : Feat) (x1 : Edges) (x2 : Mat) (x3 : Bias) (x4 : Mat) (x5 : Bias) (x6 x7 : Mat) (x8 : Bias) (x9 : Mat) :
    val_main_v65 (F := Ideal) x0 x1 x2 x3 x4 x5 x6 x7 x8 x9
      = net (M := 10000) (D := 128) z (nbrSum x1) (counts x1) x0 (tr x2) (tr x4) (tr x6) (tr x7) (tr x9) (row x3) (row x5) (row x8) := by
  unfold val_main_v65 val_main_v64 val_main_v63 val_main_v62 val_main_v61 val_main_v60 val_main_v59 val_main_v58 val_main_v57
    val_main_v56 val_main_v55 val_main_v54 val_main_v53 val_main_v52 val_main_v51 val_main_cst_9 val_main_call1_v0 val_main_call1_cst
  rw [ref_sum2, ref_counts2, ref_side, ref_hidden, divf_bcastCol, hostDot, hostDot, addf_bcastRow _ _ _ _ (by decide)]
  rfl

end Cert.ReferenceIdeal.RefNet

end
-- ==== Proof.Bridge.lean ====
/-
  The two programs form the neighbour sum and the counts by the same host operations.

  Each program states the shapes and the gather / scatter dimension records in its own namespace; the records hold the
  same numbers, so the terms are the same: the edge rows, the source column with negative ids wrapped, the target
  column, the gather-then-scatter-add sum over in-neighbours, and the scatter-add of ones that counts them.
-/
import proofs.«113735_j35639638622735_1_alg».proof.Proof.Host
import proofs.«113735_j35639638622735_1_alg».proof.Proof.RefNet

set_option maxRecDepth 16384

noncomputable section

namespace Cert.Proof.Bridge

open Idealize.ShloMosaic
open Cert.ReferenceIdeal.Read Cert.ReferenceIdeal.RefNet

theorem src_eq (e : Edges) : val_main_v1 (F := Ideal) e = Cert.KernelIdeal.Host.src e := by
  unfold val_main_v1 val_main_v0 Cert.KernelIdeal.Host.src
  rfl

theorem dst_eq (e : Edges) : val_main_v3 (F := Ideal) e = Cert.KernelIdeal.Host.dst e := by
  unfold val_main_v3 val_main_v2 Cert.KernelIdeal.Host.dst
  rfl

theorem srcCol_eq (e : Edges) : val_main_v14 (F := Ideal) e = Cert.KernelIdeal.Host.srcCol e := by
  unfold val_main_v14 val_main_v13 val_main_v12 val_main_v11 val_main_c_0 val_main_v10 val_main_v9 val_main_c Cert.KernelIdeal.Host.srcCol
  rw [src_eq]

theorem dstCol_eq (e : Edges) : val_main_v17 (F := Ideal) e = Cert.KernelIdeal.Host.dstCol e := by
  unfold val_main_v17 Cert.KernelIdeal.Host.dstCol
  rw [dst_eq]

/-- The sum over in-neighbours is one function in both programs. -/
theorem nbrSum_eq (e : Edges) : nbrSum e = Cert.KernelIdeal.Host.nbrSum e := by
  funext h
  unfold nbrSum Cert.KernelIdeal.Host.nbrSum val_main_v16 val_main_cst
  rw [srcCol_eq, dstCol_eq]
  rfl

/-- The counts are one vector in both programs. -/
theorem counts_eq (e : Edges) : counts e = Cert.KernelIdeal.Host.counts e := by
  unfold counts Cert.KernelIdeal.Host.counts val_main_v22 val_main_v21 val_main_v20 val_main_cst_2 val_main_v19 val_main_cst_1
    Cert.KernelIdeal.Host.dstCol
  rw [dst_eq]
  rfl

end Cert.Proof.Bridge

end
-- ==== Proof.lean ====
/-
  The idealized kernel and the reference compute the same two-layer mean-aggregating graph network.

  Both programs: a side branch `x · Wsᵀ + bs`; a first layer `max(mean₁ · Wl₁ᵀ + b₁ + x · Wr₁ᵀ, 0)`, where `mean₁` is
  the mean of the input rows over each node's in-neighbours; an output layer
  `max(mean₂ · Wl₂ᵀ + b₂ + h · Wr₂ᵀ + side, 0)`, where `h` is the first layer and `mean₂` its mean over the
  in-neighbours. The kernel computes the two dense layers in two kernel regions, row block by row block, with the sums
  over edges and the division by the counts on the host between them; the reference does everything on the host.

  On the extended reals every step agrees: a change of float format is the identity; a matrix-unit product accumulated
  into zero and a host dot product are both rows-times-matrix; an entry of a layer depends on its own row only, so the
  row blocks assemble into the whole-array layer; the additions come in the same order on both sides; and the kernel's
  `sum · (1 / max(count, 1))` is the reference's `sum / max(count, 1)` because the divisor is at least one, hence not
  zero — true at infinite sums too, so no finiteness of the inputs is used. The sum over in-neighbours itself (a gather
  and a scatter-add driven by the edge array) is the same host term in both programs and is never opened.

  The three frames: the kernel's two are the generated frame certificates; the reference's is its generated run with the
  result dropped. The idealization rewrote nothing, so `preserves` is trivial.
-/
import proofs.«113735_j35639638622735_1_alg».proof.Defs
import proofs.«113735_j35639638622735_1_alg».proof.Proof.Gen.Kernel
import proofs.«113735_j35639638622735_1_alg».proof.Proof.Gen.Kernel.Frame
import proofs.«113735_j35639638622735_1_alg».proof.Proof.Gen.KernelIdeal
import proofs.«113735_j35639638622735_1_alg».proof.Proof.Gen.KernelIdeal.Frame
import proofs.«113735_j35639638622735_1_alg».proof.Proof.Gen.ReferenceIdeal
import proofs.«113735_j35639638622735_1_alg».proof.Proof.Gen.ReferenceIdeal.Run
import proofs.«113735_j35639638622735_1_alg».proof.Proof.Gen.ReferenceIdeal.Read
import proofs.«113735_j35639638622735_1_alg».proof.Proof.Gen.Pre_finite_inputs
import proofs.«113735_j35639638622735_1_alg».proof.Proof.KernelNet
import proofs.«113735_j35639638622735_1_alg».proof.Proof.RefNet
import proofs.«113735_j35639638622735_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of the arguments in their result. -/
theorem algebraic : Cert.algebraic_KernelIdeal_ReferenceIdeal := by
  intro m ρ m' ρ' _ hagree
  refine ⟨fun c => Cert.KernelIdeal.Out.G m c, Cert.KernelIdeal.Out.run_net m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v65_eq, Cert.ReferenceIdeal.RefNet.ref_net, h0, h1, h2, h3, h4, h5, h6, h7, h8, h9,
    Cert.Proof.Bridge.nbrSum_eq, Cert.Proof.Bridge.counts_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
